-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x10000x256 : Shape := ⟨3, ![4, 10000, 256]⟩
abbrev S256x256 : Shape := ⟨2, ![256, 256]⟩
abbrev S256x64 : Shape := ⟨2, ![256, 64]⟩
abbrev S64 : Shape := ⟨1, ![64]⟩
abbrev S_ : Shape := ⟨0, ![]⟩

class Facts : Prop where
  bcast_S_S4x10000x256 : S_.BroadcastsInDim S4x10000x256 (![] : Fin 0 → Fin S4x10000x256.rank)
  reducesTo_S4x10000x256_S_d0_1_2 : S4x10000x256.ReducesTo [0, 1, 2] S_
  h_S_ : 0 < S_.numel
  bcast_S_S256x256 : S_.BroadcastsInDim S256x256 (![] : Fin 0 → Fin S256x256.rank)
  reducesTo_S256x256_S_d0_1 : S256x256.ReducesTo [0, 1] S_
  bcast_S_S256x64 : S_.BroadcastsInDim S256x64 (![] : Fin 0 → Fin S256x64.rank)
  reducesTo_S256x64_S_d0_1 : S256x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg4 : FVec F S256x256 .f32) (main_arg5 : FVec F S256x64 .f32) (main_arg6 : FVec F S64 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256x256 .f32 := Host.absf main_arg4
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S256x64 .f32 := Host.absf main_arg5
  let main_cst_8 : FVec F S_ .f32 := constant S_ .f32 0x7F800000#32
  let main_v25 : FVec F S256x64 .f32 := broadcastInDim S256x64 ![] bcast_S_S256x64 main_cst_8
  let main_v26 : IVec S256x64 1 := cmpf .olt main_v24 main_v25
  let main_c_9 : IVec S_ 1 := constantI S_ 1 1#1
  let main_v27 : IVec S_ 1 := (fun x v => Host.reduce IntOp.andi x v reducesTo_S256x64_S_d0_1 h_S_) main_v26 main_c_9
  let main_v28 : IVec S_ 1 := andi main_v23 main_v27
  let main_v29 : FVec F S64 .f32 := Host.absf main_arg6
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S4x10000x256 .f32) (main_arg1 : FVec F S256x256 .f32) (main_arg2 : FVec F S256x256 .f32) (main_arg3 : FVec F S256x256 .f32) (main_arg4 : FVec F S256x256 .f32) (main_arg5 : FVec F S256x64 .f32) (main_arg6 : FVec F S64 .f32) : IVec S_ 1 :=
  let main_v0 : FVec F S4x10000x256 .f32 := Host.absf main_arg0
  let main_cst : FVec F S_ .f32 := constant S_ .f32 0x7F800000#32
  let main_v1 : FVec F S4x10000x256 .f32 := broadcastInDim S4x10000x256 ![] bcast_S_S4x10000x256 main_cst
  let main_v2 : IVec S4x10000x256 1 := cmpf .olt main_v0 main_v1
  let main_c : IVec S_ 1 := constantI S_ 1 1#1
  let main_v3 : IVec S_ 1 := (fun x v => Host.reduce IntOp.andi x v reducesTo_S4x10000x256_S_d0_1_2 h_S_) main_v2 main_c
  let main_v4 : FVec F S256x256 .f32 := Host.absf main_arg1
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S256x256 .f32 := Host.absf main_arg2
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S256x256 .f32 := Host.absf main_arg3
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg4 main_arg5 main_arg6 main_v13 main_v16
-- ==== Kernel.lean ====
abbrev S4x10000x256 : Shape := ⟨3, ![4, 10000, 256]⟩
abbrev S256x256 : Shape := ⟨2, ![256, 256]⟩
abbrev S256x64 : Shape := ⟨2, ![256, 64]⟩
abbrev S64 : Shape := ⟨1, ![64]⟩
abbrev S64x256 : Shape := ⟨2, ![64, 256]⟩
abbrev S1x64 : Shape := ⟨2, ![1, 64]⟩
abbrev S4x64x10000 : Shape := ⟨3, ![4, 64, 10000]⟩
abbrev S1x10000x256 : Shape := ⟨3, ![1, 10000, 256]⟩
abbrev S1x64x10000 : Shape := ⟨3, ![1, 64, 10000]⟩
abbrev S1x5000x256 : Shape := ⟨3, ![1, 5000, 256]⟩
abbrev S5000x256 : Shape := ⟨2, ![5000, 256]⟩
abbrev S10000x256 : Shape := ⟨2, ![10000, 256]⟩
abbrev S64x10000 : Shape := ⟨2, ![64, 10000]⟩
abbrev S64x1 : Shape := ⟨2, ![64, 1]⟩
abbrev S4x10000x64 : Shape := ⟨3, ![4, 10000, 64]⟩

abbrev nBuf : Space → Nat
  | .hbm => 11
  | .vmem => 10
  | .smem => 0
  | _ => 0

abbrev bufTy : (tb : Table) → Fin (tcTables nBuf tb) → BufTy
  | .hbm, ⟨0, _⟩ => ⟨S4x10000x256, .f32⟩
  | .hbm, ⟨1, _⟩ => ⟨S256x256, .f32⟩
  | .hbm, ⟨2, _⟩ => ⟨S256x256, .f32⟩
  | .hbm, ⟨3, _⟩ => ⟨S256x256, .f32⟩
  | .hbm, ⟨4, _⟩ => ⟨S256x256, .f32⟩
  | .hbm, ⟨5, _⟩ => ⟨S256x64, .f32⟩
  | .hbm, ⟨6, _⟩ => ⟨S64, .f32⟩
  | .hbm, ⟨7, _⟩ => ⟨S64x256, .f32⟩
  | .hbm, ⟨8, _⟩ => ⟨S1x64, .f32⟩
  | .hbm, ⟨9, _⟩ => ⟨S4x64x10000, .f32⟩
  | .hbm, ⟨10, _⟩ => ⟨S4x10000x64, .f32⟩
  | .local _ .vmem, ⟨0, _⟩ => ⟨S1x10000x256, .f32⟩
  | .local _ .vmem, ⟨1, _⟩ => ⟨S1x10000x256, .f32⟩
  | .local _ .vmem, ⟨2, _⟩ => ⟨S256x256, .f32⟩
  | .local _ .vmem, ⟨3, _⟩ => ⟨S256x256, .f32⟩
  | .local _ .vmem, ⟨4, _⟩ => ⟨S256x256, .f32⟩
  | .local _ .vmem, ⟨5, _⟩ => ⟨S256x256, .f32⟩
  | .local _ .vmem, ⟨6, _⟩ => ⟨S64x256, .f32⟩
  | .local _ .vmem, ⟨7, _⟩ => ⟨S1x64, .f32⟩
  | .local _ .vmem, ⟨8, _⟩ => ⟨S1x64x10000, .f32⟩
  | .local _ .vmem, ⟨9, _⟩ => ⟨S1x64x10000, .f32⟩
  | _, _ => ⟨S4x10000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x10000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1x64x10000 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  transposes_S256x64_S64x256_1_0 : S256x64.Transposes [1, 0] S64x256
  shapeCasts_S64_S1x64 : S64.ShapeCasts S1x64
  inb_S1x10000x256_S1x5000x256_0_0_0 : ∀ a, (![0, 0, 0] : Fin 3 → Nat) a + S1x5000x256.size a ≤ S1x10000x256.size a
  h_S1x5000x256 : 0 < S1x5000x256.numel
  shapeCasts_S1x5000x256_S5000x256 : S1x5000x256.ShapeCasts S5000x256
  inb_S256x256_S256x256_0_0 : ∀ a, (![0, 0] : Fin 2 → Nat) a + S256x256.size a ≤ S256x256.size a
  h_S256x256 : 0 < S256x256.numel
  bitsLt_bf16_f32 : FTy.bits .bf16 < FTy.bits .f32
  inb_S1x10000x256_S1x5000x256_0_5000_0 : ∀ a, (![0, 5000, 0] : Fin 3 → Nat) a + S1x5000x256.size a ≤ S1x10000x256.size a
  concatenates_S5000x256_S5000x256_S10000x256_d0 : Shape.Concatenates [S5000x256, S5000x256] S10000x256 0
  inb_S64x256_S64x256_0_0 : ∀ a, (![0, 0] : Fin 2 → Nat) a + S64x256.size a ≤ S64x256.size a
  h_S64x256 : 0 < S64x256.numel
  shapeCasts_S64x256_S64x256 : S64x256.ShapeCasts S64x256
  inb_S1x64_S1x64_0_0 : ∀ a, (![0, 0] : Fin 2 → Nat) a + S1x64.size a ≤ S1x64.size a
  h_S1x64 : 0 < S1x64.numel
  shapeCasts_S1x64_S64 : S1x64.ShapeCasts S64
  shapeCasts_S64_S64x1 : S64.ShapeCasts S64x1
  broadcasts_S64x1_S64x10000 : S64x1.Broadcasts S64x10000
  inb_S1x64x10000_S1x64x10000_0_0_0 : ∀ a, (![0, 0, 0] : Fin 3 → Nat) a + S1x64x10000.size a ≤ S1x64x10000.size a
  h_S1x64x10000 : 0 < S1x64x10000.numel
  shapeCasts_S1x64x10000_S64x10000 : S1x64x10000.ShapeCasts S64x10000
  shapeCasts_S64x10000_S1x64x10000 : S64x10000.ShapeCasts S1x64x10000
  transposes_S4x64x10000_S4x10000x64_0_2_1 : S4x64x10000.Transposes [0, 2, 1] S4x10000x64
  dot_S5000x256_S256x256_S5000x256_1_0_0_1_n_n_wf : DotDims.WF S5000x256 S256x256 S5000x256 [1] [0] [0] [1] [] []
  dot_S64x256_S10000x256_S64x10000_1_1_0_0_n_n_wf : DotDims.WF S64x256 S10000x256 S64x10000 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x10000x256.size a ≤ S4x10000x256.size a
  hwx0_0 : ∀ i : grid0.Coords, EltTy.bits .f32 = 32 ∨ (Rect.block (s := S4x10000x256) S1x10000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S256x256.size a
  hwx0_2 : ∀ i : grid0.Coords, EltTy.bits .f32 = 32 ∨ (Rect.block (s := S256x256) S256x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .f32 = 32 ∨ (Rect.block (s := S256x256) S256x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x256.size a ≤ S256x256.size a
  hwx0_4 : ∀ i : grid0.Coords, EltTy.bits .f32 = 32 ∨ (Rect.block (s := S256x256) S256x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x256.size a ≤ S64x256.size a
  hwx0_5 : ∀ i : grid0.Coords, EltTy.bits .f32 = 32 ∨ (Rect.block (s := S64x256) S64x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x64.size a ≤ S1x64.size a
  hwx0_6 : ∀ i : grid0.Coords, EltTy.bits .f32 = 32 ∨ (Rect.block (s := S1x64) S1x64.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x64x10000.size a ≤ S4x64x10000.size a
  hwx0_7 : ∀ i : grid0.Coords, EltTy.bits .f32 = 32 ∨ (Rect.block (s := S4x64x10000) S1x64x10000.size (cc0_transform_7 i) (hinb0_7 i)).WholeWords (EltTy.packing .f32)

variable [Facts₀]

def dot_S5000x256_S256x256_S5000x256_1_0_0_1_n_n : DotDims S5000x256 S256x256 S5000x256 where
  lhsContracting := [1]
  rhsContracting := [0]
  lhsNonContracting := [0]
  rhsNonContracting := [1]
  lhsBatch := []
  rhsBatch := []
  wf := dot_S5000x256_S256x256_S5000x256_1_0_0_1_n_n_wf
def dot_S64x256_S10000x256_S64x10000_1_1_0_0_n_n : DotDims S64x256 S10000x256 S64x10000 where
  lhsContracting := [1]
  rhsContracting := [1]
  lhsNonContracting := [0]
  rhsNonContracting := [0]
  lhsBatch := []
  rhsBatch := []
  wf := dot_S64x256_S10000x256_S64x10000_1_1_0_0_n_n_wf

abbrev win0_0 : Pipeline.Window sig grid0 :=
  Pipeline.Window.ofSpec (Memref.whole main_arg0) S1x10000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S256x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v0) S64x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v1) S1x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v2) S1x64x10000.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S4x10000x256 : Shape := ⟨3, ![4, 10000, 256]⟩
abbrev S256x256 : Shape := ⟨2, ![256, 256]⟩
abbrev S256x64 : Shape := ⟨2, ![256, 64]⟩
abbrev S64 : Shape := ⟨1, ![64]⟩
abbrev S_ : Shape := ⟨0, ![]⟩
abbrev S4x10000x64 : Shape := ⟨3, ![4, 10000, 64]⟩
abbrev S1x1x64 : Shape := ⟨3, ![1, 1, 64]⟩

abbrev nBuf : Space → Nat
  | .hbm => 24
  | .vmem => 0
  | .smem => 0
  | _ => 0

abbrev bufTy : (tb : Table) → Fin (tcTables nBuf tb) → BufTy
  | .hbm, ⟨0, _⟩ => ⟨S4x10000x256, .f32⟩
  | .hbm, ⟨1, _⟩ => ⟨S256x256, .f32⟩
  | .hbm, ⟨2, _⟩ => ⟨S256x256, .f32⟩
  | .hbm, ⟨3, _⟩ => ⟨S256x256, .f32⟩
  | .hbm, ⟨4, _⟩ => ⟨S256x256, .f32⟩
  | .hbm, ⟨5, _⟩ => ⟨S256x64, .f32⟩
  | .hbm, ⟨6, _⟩ => ⟨S64, .f32⟩
  | .hbm, ⟨7, _⟩ => ⟨S4x10000x256, .f32⟩
  | .hbm, ⟨8, _⟩ => ⟨S_, .f32⟩
  | .hbm, ⟨9, _⟩ => ⟨S4x10000x256, .f32⟩
  | .hbm, ⟨10, _⟩ => ⟨S4x10000x256, .f32⟩
  | .hbm, ⟨11, _⟩ => ⟨S4x10000x256, .f32⟩
  | .hbm, ⟨12, _⟩ => ⟨S_, .f32⟩
  | .hbm, ⟨13, _⟩ => ⟨S4x10000x256, .f32⟩
  | .hbm, ⟨14, _⟩ => ⟨S4x10000x256, .f32⟩
  | .hbm, ⟨15, _⟩ => ⟨S4x10000x256, .f32⟩
  | .hbm, ⟨16, _⟩ => ⟨S_, .f32⟩
  | .hbm, ⟨17, _⟩ => ⟨S4x10000x256, .f32⟩
  | .hbm, ⟨18, _⟩ => ⟨S4x10000x256, .f32⟩
  | .hbm, ⟨19, _⟩ => ⟨S4x10000x256, .f32⟩
  | .hbm, ⟨20, _⟩ => ⟨S4x10000x64, .f32⟩
  | .hbm, ⟨21, _⟩ => ⟨S1x1x64, .f32⟩
  | .hbm, ⟨22, _⟩ => ⟨S4x10000x64, .f32⟩
  | .hbm, ⟨23, _⟩ => ⟨S4x10000x64, .f32⟩
  | _, _ => ⟨S4x10000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_call0_cst : Ref sig .tc := ⟨.hbm, 8, rfl⟩
abbrev main_call0_v0 : Ref sig .tc := ⟨.hbm, 9, rfl⟩
abbrev main_v1 : Ref sig .tc := ⟨.hbm, 10, rfl⟩
abbrev main_v2 : Ref sig .tc := ⟨.hbm, 11, rfl⟩
abbrev main_call1_cst : Ref sig .tc := ⟨.hbm, 12, rfl⟩
abbrev main_call1_v0 : Ref sig .tc := ⟨.hbm, 13, rfl⟩
abbrev main_v3 : Ref sig .tc := ⟨.hbm, 14, rfl⟩
abbrev main_v4 : Ref sig .tc := ⟨.hbm, 15, rfl⟩
abbrev main_call2_cst : Ref sig .tc := ⟨.hbm, 16, rfl⟩
abbrev main_call2_v0 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩

abbrev nD : Nat := 1
abbrev τ : Topo := Topo.v7x

variable {F : FTy → Type} [FloatOps F]

class Facts₀ : Prop where
  bcast_S_S4x10000x256 : S_.BroadcastsInDim S4x10000x256 (![] : Fin 0 → Fin S4x10000x256.rank)
  bcast_S64_S1x1x64_2 : S64.BroadcastsInDim S1x1x64 (![2] : Fin 1 → Fin S1x1x64.rank)
  bcast_S1x1x64_S4x10000x64_0_1_2 : S1x1x64.BroadcastsInDim S4x10000x64 (![0, 1, 2] : Fin 3 → Fin S4x10000x64.rank)
  dot_S4x10000x256_S256x256_S4x10000x256_2_0_01_1_n_n_wf : DotDims.WF S4x10000x256 S256x256 S4x10000x256 [2] [0] [0, 1] [1] [] []
  dot_S4x10000x256_S256x64_S4x10000x64_2_0_01_1_n_n_wf : DotDims.WF S4x10000x256 S256x64 S4x10000x64 [2] [0] [0, 1] [1] [] []

variable [Facts₀]

def dot_S4x10000x256_S256x256_S4x10000x256_2_0_01_1_n_n : DotDims S4x10000x256 S256x256 S4x10000x256 where
  lhsContracting := [2]
  rhsContracting := [0]
  lhsNonContracting := [0, 1]
  rhsNonContracting := [1]
  lhsBatch := []
  rhsBatch := []
  wf := dot_S4x10000x256_S256x256_S4x10000x256_2_0_01_1_n_n_wf
def dot_S4x10000x256_S256x64_S4x10000x64_2_0_01_1_n_n : DotDims S4x10000x256 S256x64 S4x10000x64 where
  lhsContracting := [2]
  rhsContracting := [0]
  lhsNonContracting := [0, 1]
  rhsNonContracting := [1]
  lhsBatch := []
  rhsBatch := []
  wf := dot_S4x10000x256_S256x64_S4x10000x64_2_0_01_1_n_n_wf

class Facts : Prop extends Facts₀ where

variable [Facts]
-- ==== Proof.Mlp.lean ====
/-
  A per-node multilayer perceptron on the extended reals, read one node at a time.

  Every node carries a row of 256 features.  A layer multiplies the row by a weight matrix: entry q of the new row is the
  sum over k of r(k) · w(k, q).  The first three layers are followed by the rectifier max(·, 0), the fourth is not, and a
  last 256 → 64 layer with a bias gives the node's 64 outputs.  Nothing couples two nodes: the output row of node (b, n)
  is a function of that node's input row and the weights alone.  That is the whole content of the comparison between a
  program that walks the nodes in slabs of 5000 rows and one that treats the [4, 10000, 256] array at once.
-/
import Idealize.ShloMosaic.PureOps.Ideal
import Idealize.ShloMosaic.Lib.ValueIdx

noncomputable section

namespace Cert.Mlp

open Idealize.ShloMosaic Idealize.ShloMosaic.ValueIdx
open scoped BigOperators

/-- A weight matrix applied to a row: entry `q` is `∑ k, r(k) · w(k, q)`. -/
def lin {K N : ℕ} (w : (⟨2, ![K, N]⟩ : Shape).Idx → EReal) (r : Fin K → EReal) : Fin N → EReal :=
  fun q => ∑ k : Fin K, r k * w (ix2 k q)

/-- The rectifier on a row. -/
def relu {N : ℕ} (r : Fin N → EReal) : Fin N → EReal := fun q => max (r q) 0

/-- Three rectified layers and a fourth plain one. -/
def hidden (w1 w2 w3 w4 : (⟨2, ![256, 256]⟩ : Shape).Idx → EReal) (r : Fin 256 → EReal) : Fin 256 → EReal :=
  lin w4 (relu (lin w3 (relu (lin w2 (relu (lin w1 r))))))

/-- The classifier: one more layer, then the bias entry of the output column. -/
def logits (wc : (⟨2, ![256, 64]⟩ : Shape).Idx → EReal) (bias : (⟨1, ![64]⟩ : Shape).Idx → EReal) (h : Fin 256 → EReal) :
    Fin 64 → EReal :=
  fun k => lin wc h k + bias (ix1 k)

/-- The feature row of node `n` of batch `b`. -/
def node (x : (⟨3, ![4, 10000, 256]⟩ : Shape).Idx → EReal) (b : Fin 4) (n : Fin 10000) : Fin 256 → EReal :=
  fun d => x (ix3 b n d)

/-- The network on the whole array: entry `(b, n, k)` is output `k` of node `(b, n)`. -/
def net (x : (⟨3, ![4, 10000, 256]⟩ : Shape).Idx → EReal) (w1 w2 w3 w4 : (⟨2, ![256, 256]⟩ : Shape).Idx → EReal)
    (wc : (⟨2, ![256, 64]⟩ : Shape).Idx → EReal) (bias : (⟨1, ![64]⟩ : Shape).Idx → EReal) :
    (⟨3, ![4, 10000, 64]⟩ : Shape).Idx → EReal :=
  fun i => logits wc bias (hidden w1 w2 w3 w4 (node x (i 0) (i 1))) (i 2)

theorem net_ix3 (x : (⟨3, ![4, 10000, 256]⟩ : Shape).Idx → EReal) (w1 w2 w3 w4 : (⟨2, ![256, 256]⟩ : Shape).Idx → EReal)
    (wc : (⟨2, ![256, 64]⟩ : Shape).Idx → EReal) (bias : (⟨1, ![64]⟩ : Shape).Idx → EReal) (b : Fin 4) (n : Fin 10000) (k : Fin 64) :
    net x w1 w2 w3 w4 wc bias (ix3 b n k) = logits wc bias (hidden w1 w2 w3 w4 (node x b n)) k := rfl

/-- The last layer with the weight matrix stored transposed and the two factors of each product exchanged: the same
    sum, by commutativity of the product of extended reals. -/
theorem lin_transposed (wc : (⟨2, ![256, 64]⟩ : Shape).Idx → EReal) (wt : (⟨2, ![64, 256]⟩ : Shape).Idx → EReal)
    (hwt : ∀ (k : Fin 64) (d : Fin 256), wt (ix2 k d) = wc (ix2 d k)) (h : Fin 256 → EReal) (k : Fin 64) :
    ∑ d : Fin 256, wt (ix2 k d) * h d = lin wc h k :=
  Finset.sum_congr rfl fun d _ => by rw [hwt, mul_comm]

end Cert.Mlp

end
-- ==== Proof.RefNet.lean ====
/-
  The reference computes the network of `Mlp.lean`.

  Its five `dot_general`s contract the last axis of a [4, 10000, ·] array with the first axis of a weight matrix, so
  entry (b, n, q) of each is the layer applied to row (b, n) of its left operand; its three `maximum`s against a
  broadcast zero are the rectifier; the bias is broadcast along the last axis.  Each stage is read at an index
  (b, n, q) and the stages are chained row by row.
-/
import proofs.«120015_g49924699848964_cont_8to1_c_527_20_alg».proof.Proof.Gen.ReferenceIdeal.Read
import proofs.«120015_g49924699848964_cont_8to1_c_527_20_alg».proof.Proof.Mlp
import Idealize.ShloMosaic.PureOps.Ideal.Laws

noncomputable section

namespace Cert.ReferenceIdeal.RefNet

open Cert.ReferenceIdeal Cert.ReferenceIdeal.Read Idealize.ShloMosaic Idealize.ShloMosaic.ValueIdx Cert.Mlp
open scoped BigOperators

/-! ## Where each contraction reads its operands -/

theorem lidx0 (b : Fin 4) (n : Fin 10000) (q k : Fin 256) : lidx_main_v0 (ix3 b n q) k = ix3 b n k :=
  funext fun a => Fin.ext (by match a with | ⟨0, _⟩ => rfl | ⟨1, _⟩ => rfl | ⟨2, _⟩ => rfl)
theorem ridx0 (b : Fin 4) (n : Fin 10000) (q k : Fin 256) : ridx_main_v0 (ix3 b n q) k = ix2 k q :=
  funext fun a => Fin.ext (by match a with | ⟨0, _⟩ => rfl | ⟨1, _⟩ => rfl)
theorem lidx2 (b : Fin 4) (n : Fin 10000) (q k : Fin 256) : lidx_main_v2 (ix3 b n q) k = ix3 b n k :=
  funext fun a => Fin.ext (by match a with | ⟨0, _⟩ => rfl | ⟨1, _⟩ => rfl | ⟨2, _⟩ => rfl)
theorem ridx2 (b : Fin 4) (n : Fin 10000) (q k : Fin 256) : ridx_main_v2 (ix3 b n q) k = ix2 k q :=
  funext fun a => Fin.ext (by match a with | ⟨0, _⟩ => rfl | ⟨1, _⟩ => rfl)
theorem lidx4 (b : Fin 4) (n : Fin 10000) (q k : Fin 256) : lidx_main_v4 (ix3 b n q) k = ix3 b n k :=
  funext fun a => Fin.ext (by match a with | ⟨0, _⟩ => rfl | ⟨1, _⟩ => rfl | ⟨2, _⟩ => rfl)
theorem ridx4 (b : Fin 4) (n : Fin 10000) (q k : Fin 256) : ridx_main_v4 (ix3 b n q) k = ix2 k q :=
  funext fun a => Fin.ext (by match a with | ⟨0, _⟩ => rfl | ⟨1, _⟩ => rfl)
theorem lidx6 (b : Fin 4) (n : Fin 10000) (q k : Fin 256) : lidx_main_v6 (ix3 b n q) k = ix3 b n k :=
  funext fun a => Fin.ext (by match a with | ⟨0, _⟩ => rfl | ⟨1, _⟩ => rfl | ⟨2, _⟩ => rfl)
theorem ridx6 (b : Fin 4) (n : Fin 10000) (q k : Fin 256) : ridx_main_v6 (ix3 b n q) k = ix2 k q :=
  funext fun a => Fin.ext (by match a with | ⟨0, _⟩ => rfl | ⟨1, _⟩ => rfl)
theorem lidx7 (b : Fin 4) (n : Fin 10000) (q : Fin 64) (k : Fin 256) : lidx_main_v7 (ix3 b n q) k = ix3 b n k :=
  funext fun a => Fin.ext (by match a with | ⟨0, _⟩ => rfl | ⟨1, _⟩ => rfl | ⟨2, _⟩ => rfl)
theorem ridx7 (b : Fin 4) (n : Fin 10000) (q : Fin 64) (k : Fin 256) : ridx_main_v7 (ix3 b n q) k = ix2 k q :=
  funext fun a => Fin.ext (by match a with | ⟨0, _⟩ => rfl | ⟨1, _⟩ => rfl)
theorem bias_idx (b : Fin 4) (n : Fin 10000) (q : Fin 64) : idx_main_v8 (idx_main_v9 (ix3 b n q)) = ix1 q :=
  funext fun a => Fin.ext (by match a with | ⟨0, _⟩ => rfl)

/-! ## The stages, row by row -/

variable (x0 : (⟨S4x10000x256, .f32⟩ : BufTy).Contents (Elt Ideal)) (x1 x2 x3 x4 : (⟨S256x256, .f32⟩ : BufTy).Contents (Elt Ideal))
  (x5 : (⟨S256x64, .f32⟩ : BufTy).Contents (Elt Ideal)) (x6 : (⟨S64, .f32⟩ : BufTy).Contents (Elt Ideal))

/-- The rectifier's zero is the real zero. -/
theorem zero0 (i : S4x10000x256.Idx) : val_main_call0_v0 (F := Ideal) i = 0 := by
  rw [val_main_call0_v0_apply, val_main_call0_cst_apply, Ideal.ofBits_def, Ideal.ofBits_zero_f32]
theorem zero1 (i : S4x10000x256.Idx) : val_main_call1_v0 (F := Ideal) i = 0 := by
  rw [val_main_call1_v0_apply, val_main_call1_cst_apply, Ideal.ofBits_def, Ideal.ofBits_zero_f32]
theorem zero2 (i : S4x10000x256.Idx) : val_main_call2_v0 (F := Ideal) i = 0 := by
  rw [val_main_call2_v0_apply, val_main_call2_cst_apply, Ideal.ofBits_def, Ideal.ofBits_zero_f32]

theorem row0 (b : Fin 4) (n : Fin 10000) :
    (fun q : Fin 256 => val_main_v0 (F := Ideal) x0 x1 (ix3 b n q)) = lin x1 (node x0 b n) := by
  funext q
  rw [val_main_v0_apply]
  simp only [lidx0, ridx0]
  rfl

theorem row1 (b : Fin 4) (n : Fin 10000) :
    (fun q : Fin 256 => val_main_v1 (F := Ideal) x0 x1 (ix3 b n q)) = relu (lin x1 (node x0 b n)) := by
  funext q
  rw [val_main_v1_apply, zero0, Ideal.maximumf_def]
  exact congrArg (fun v => max v 0) (congrFun (row0 x0 x1 b n) q)

theorem row2 (b : Fin 4) (n : Fin 10000) :
    (fun q : Fin 256 => val_main_v2 (F := Ideal) x0 x1 x2 (ix3 b n q)) = lin x2 (relu (lin x1 (node x0 b n))) := by
  funext q
  rw [val_main_v2_apply]
  simp only [lidx2, ridx2]
  exact congrArg (fun r => lin x2 r q) (row1 x0 x1 b n)

theorem row3 (b : Fin 4) (n : Fin 10000) :
    (fun q : Fin 256 => val_main_v3 (F := Ideal) x0 x1 x2 (ix3 b n q)) = relu (lin x2 (relu (lin x1 (node x0 b n)))) := by
  funext q
  rw [val_main_v3_apply, zero1, Ideal.maximumf_def]
  exact congrArg (fun v => max v 0) (congrFun (row2 x0 x1 x2 b n) q)

theorem row4 (b : Fin 4) (n : Fin 10000) :
    (fun q : Fin 256 => val_main_v4 (F := Ideal) x0 x1 x2 x3 (ix3 b n q))
      = lin x3 (relu (lin x2 (relu (lin x1 (node x0 b n))))) := by
  funext q
  rw [val_main_v4_apply]
  simp only [lidx4, ridx4]
  exact congrArg (fun r => lin x3 r q) (row3 x0 x1 x2 b n)

theorem row5 (b : Fin 4) (n : Fin 10000) :
    (fun q : Fin 256 => val_main_v5 (F := Ideal) x0 x1 x2 x3 (ix3 b n q))
      = relu (lin x3 (relu (lin x2 (relu (lin x1 (node x0 b n)))))) := by
  funext q
  rw [val_main_v5_apply, zero2, Ideal.maximumf_def]
  exact congrArg (fun v => max v 0) (congrFun (row4 x0 x1 x2 x3 b n) q)

theorem row6 (b : Fin 4) (n : Fin 10000) :
    (fun q : Fin 256 => val_main_v6 (F := Ideal) x0 x1 x2 x3 x4 (ix3 b n q)) = hidden x1 x2 x3 x4 (node x0 b n) := by
  funext q
  rw [val_main_v6_apply]
  simp only [lidx6, ridx6]
  exact congrArg (fun r => lin x4 r q) (row5 x0 x1 x2 x3 b n)

/-- The reference's result is the network of the argument arrays. -/
theorem ref_is_net : val_main_v10 (F := Ideal) x0 x1 x2 x3 x4 x5 x6 = net x0 x1 x2 x3 x4 x5 x6 := by
  funext i
  obtain ⟨b, n, k, rfl⟩ : ∃ (b : Fin 4) (n : Fin 10000) (k : Fin 64), i = ix3 b n k := ⟨i 0, i 1, i 2, eq_ix3 i⟩
  rw [net_ix3, val_main_v10_apply, val_main_v9_apply, val_main_v8_apply, bias_idx, val_main_v7_apply, Ideal.addf_def]
  simp only [lidx7, ridx7]
  exact congrArg (fun r => lin x5 r k + x6 (ix1 k)) (row6 x0 x1 x2 x3 x4 b n)

end Cert.ReferenceIdeal.RefNet

end
-- ==== Proof.LibDense.lean ====
/-
  Dense layers on the extended reals, index by index.

  A matrix product with one contracted axis, however the contraction's index type is presented, is at entry (p, q)
  the sum over k of x(p, k) · w(k, q).  This file fixes that reading for the plain two-dimensional product
  [M, K] × [K, N] → [M, N] (left axis 1 against right axis 0), both for the matrix unit's product into a zero
  accumulator and for the host's general dot product, and adds the bias row and the activation:
    dense x w b (p, q)     = (∑ k, x(p, k) · w(k, q)) + b(q)
  No finiteness is needed anywhere: only the definitions of the operations and a re-indexing of the sum.
-/
import Idealize.ShloMosaic.PureOps.Ideal
import Idealize.ShloMosaic.PureOps.Ideal.Laws
import Idealize.ShloMosaic.Lib.ValueIdx
import Idealize.ShloMosaic.Lib.Pipeline.Value
import Idealize.ShloMosaic.Lib.ValueLayout

noncomputable section

namespace Cert.Lib.Dense

open Idealize.ShloMosaic Idealize.ShloMosaic.ValueIdx
open scoped BigOperators

/-- Row `p` of `x` against column `q` of `w`. -/
def rowDot {M K N : ℕ} (x : (⟨2, ![M, K]⟩ : Shape).Idx → EReal) (w : (⟨2, ![K, N]⟩ : Shape).Idx → EReal)
    (p : Fin M) (q : Fin N) : EReal :=
  ∑ k : Fin K, x (ix2 p k) * w (ix2 k q)

/-- A contraction over one axis is the sum over that axis's coordinate. -/
theorem contr_sum {sl sr so : Shape} (D : DotDims sl sr so) (K : ℕ) (hr : D.contr.rank = 1)
    (hs : D.contr.size ⟨0, by omega⟩ = K) (f : sl.Idx → EReal) (g : sr.Idx → EReal) (j : so.Idx)
    (L : Fin K → sl.Idx) (R : Fin K → sr.Idx)
    (hL : ∀ k, D.lhsIdx j ((contrEquiv1 D K hr hs).symm k) = L k)
    (hR : ∀ k, D.rhsIdx j ((contrEquiv1 D K hr hs).symm k) = R k) :
    ∑ k : D.contr.Idx, f (D.lhsIdx j k) * g (D.rhsIdx j k) = ∑ k : Fin K, f (L k) * g (R k) := by
  rw [← Equiv.sum_comp (contrEquiv1 D K hr hs).symm]
  exact Finset.sum_congr rfl fun k _ => by rw [hL k, hR k]

section Plain

variable {M K N : ℕ} (D : DotDims ⟨2, ![M, K]⟩ ⟨2, ![K, N]⟩ ⟨2, ![M, N]⟩)
  (hlc : D.lhsContracting = [1]) (hrc : D.rhsContracting = [0])
  (hln : D.lhsNonContracting = [0]) (hrn : D.rhsNonContracting = [1])
  (hlb : D.lhsBatch = []) (hrb : D.rhsBatch = [])

include hlc in
theorem plain_rank : D.contr.rank = 1 := by rw [D.rank_contr, hlc]; rfl

include hlc in
theorem plain_size : D.contr.size ⟨0, by rw [plain_rank D hlc]; exact Nat.one_pos⟩ = K := by
  have := D.size_contr 0 (by rw [hlc]; exact Nat.one_pos)
  rw [this]
  simp [hlc]

include hln hlb in
/-- The left operand's free coordinate is the result's row. -/
theorem plain_lhs0 (j : (⟨2, ![M, N]⟩ : Shape).Idx) (k : D.contr.Idx) : (D.lhsIdx j k 0).val = (j 0).val := by
  have hb : (0 : Fin 2) ∉ D.lhsBatch := by rw [hlb]; simp
  have hn : (0 : Fin 2) ∈ D.lhsNonContracting := by rw [hln]; simp
  unfold DotDims.lhsIdx
  rw [dif_neg hb, dif_pos hn]
  simp only [Fin.val_cast]
  have key : ∀ (p q : Nat) (hp : p < (⟨2, ![M, N]⟩ : Shape).rank) (hq : q < (⟨2, ![M, N]⟩ : Shape).rank), p = q → (j ⟨p, hp⟩).val = (j ⟨q, hq⟩).val :=
    fun p q hp hq h => by subst h; rfl
  exact key _ _ _ _ (by simp [hlb, hln])

include hrn hrb hln hlb in
/-- The right operand's free coordinate is the result's column. -/
theorem plain_rhs1 (j : (⟨2, ![M, N]⟩ : Shape).Idx) (k : D.contr.Idx) : (D.rhsIdx j k 1).val = (j 1).val := by
  have hb : (1 : Fin 2) ∉ D.rhsBatch := by rw [hrb]; simp
  have hn : (1 : Fin 2) ∈ D.rhsNonContracting := by rw [hrn]; simp
  unfold DotDims.rhsIdx
  rw [dif_neg hb, dif_pos hn]
  simp only [Fin.val_cast]
  have key : ∀ (p q : Nat) (hp : p < (⟨2, ![M, N]⟩ : Shape).rank) (hq : q < (⟨2, ![M, N]⟩ : Shape).rank), p = q → (j ⟨p, hp⟩).val = (j ⟨q, hq⟩).val :=
    fun p q hp hq h => by subst h; rfl
  exact key _ _ _ _ (by simp [hlb, hln, hrn])

include hlc hrc hln hrn hlb hrb in
/-- The contraction of a plain product at entry `(p, q)` is the row of `x` against the column of `w`. -/
theorem plain_sum (f : (⟨2, ![M, K]⟩ : Shape).Idx → EReal) (g : (⟨2, ![K, N]⟩ : Shape).Idx → EReal) (p : Fin M) (q : Fin N) :
    ∑ k : D.contr.Idx, f (D.lhsIdx (ix2 p q) k) * g (D.rhsIdx (ix2 p q) k) = rowDot f g p q := by
  refine contr_sum D K (plain_rank D hlc) (plain_size D hlc) f g (ix2 p q) (fun k => ix2 p k) (fun k => ix2 k q) (fun k => ?_) (fun k => ?_)
  · funext a; apply Fin.ext
    match a with
    | ⟨0, _⟩ => exact plain_lhs0 D hln hlb (ix2 p q) _
    | ⟨1, _⟩ => exact (D.lhsIdx_val_of_single hlc (ix2 p q) _).trans (contrEquiv1_symm_val D K (plain_rank D hlc) (plain_size D hlc) k)
  · funext a; apply Fin.ext
    match a with
    | ⟨0, _⟩ => exact (D.rhsIdx_val_of_single hrc (ix2 p q) _).trans (contrEquiv1_symm_val D K (plain_rank D hlc) (plain_size D hlc) k)
    | ⟨1, _⟩ => exact plain_rhs1 D hln hrn hlb hrb (ix2 p q) _

include hlc hrc hln hrn hlb hrb in
/-- The matrix unit's product into a zero accumulator, at entry `(p, q)`. -/
theorem matmul_zero_at {φ₁ φ₂ : FTy} (x : FVec Ideal ⟨2, ![M, K]⟩ φ₁) (w : FVec Ideal ⟨2, ![K, N]⟩ φ₂) (p : Fin M) (q : Fin N) :
    matmul D none x w (constant ⟨2, ![M, N]⟩ .f32 0x00000000#32) (ix2 p q) = rowDot x w p q :=
  (Ideal.matmul_constant_zero_apply D none x w (ix2 p q)).trans (plain_sum D hlc hrc hln hrn hlb hrb x w p q)

include hlc hrc hln hrn hlb hrb in
/-- The host's general dot product, at entry `(p, q)`. -/
theorem dotGeneral_at {φ₁ φ₂ : FTy} (x : FVec Ideal ⟨2, ![M, K]⟩ φ₁) (w : FVec Ideal ⟨2, ![K, N]⟩ φ₂) (p : Fin M) (q : Fin N) :
    Host.dotGeneral D none x w (ix2 p q) = rowDot x w p q :=
  (Ideal.dotGeneral_apply D none .single x w (ix2 p q)).trans (plain_sum D hlc hrc hln hrn hlb hrb x w p q)

end Plain

/-- A dense layer as one function of whole arrays: entry `(p, q)` is `act` of row `p` of `x` against column `q` of
    `w` plus the bias row's entry `q`. -/
def dense {M K N : ℕ} (act : EReal → EReal) (x : (⟨2, ![M, K]⟩ : Shape).Idx → EReal) (w : (⟨2, ![K, N]⟩ : Shape).Idx → EReal)
    (b : (⟨2, ![1, N]⟩ : Shape).Idx → EReal) : (⟨2, ![M, N]⟩ : Shape).Idx → EReal :=
  fun i => act (rowDot x w (i 0) (i 1) + b (ix2 (0 : Fin 1) (i 1)))

theorem dense_ix2 {M K N : ℕ} (act : EReal → EReal) (x : (⟨2, ![M, K]⟩ : Shape).Idx → EReal) (w : (⟨2, ![K, N]⟩ : Shape).Idx → EReal)
    (b : (⟨2, ![1, N]⟩ : Shape).Idx → EReal) (p : Fin M) (q : Fin N) :
    dense act x w b (ix2 p q) = act (rowDot x w p q + b (ix2 (0 : Fin 1) q)) := rfl

/-- The combine step as one function of whole arrays: entry `(p, q)` is
    `tanh((a(p, q) + h(p, q) · d(p, 0)) + b(0, q))`. -/
def combine {M N : ℕ} (a h : (⟨2, ![M, N]⟩ : Shape).Idx → EReal) (d : (⟨2, ![M, 1]⟩ : Shape).Idx → EReal)
    (b : (⟨2, ![1, N]⟩ : Shape).Idx → EReal) : (⟨2, ![M, N]⟩ : Shape).Idx → EReal :=
  fun i => Ideal.tanh ((a i + h i * d (ix2 (i 0) (0 : Fin 1))) + b (ix2 (0 : Fin 1) (i 1)))

theorem combine_ix2 {M N : ℕ} (a h : (⟨2, ![M, N]⟩ : Shape).Idx → EReal) (d : (⟨2, ![M, 1]⟩ : Shape).Idx → EReal)
    (b : (⟨2, ![1, N]⟩ : Shape).Idx → EReal) (p : Fin M) (q : Fin N) :
    combine a h d b (ix2 p q)
      = Ideal.tanh ((a (ix2 p q) + h (ix2 p q) * d (ix2 p (0 : Fin 1))) + b (ix2 (0 : Fin 1) q)) := rfl

end Cert.Lib.Dense

end
-- ==== Proof.LibDenseNT.lean ====
/-
  A matrix product against a transposed right operand, on the extended reals, index by index.

  `[M, K] × [N, K] → [M, N]`, both operands contracted along their second axis (the `q · kᵀ` of attention scores, written
  without materialising the transpose): entry `(p, q)` is `∑ k, x(p, k) · w(q, k)`.  Stated for the matrix unit's product into
  a zero accumulator, at any contraction precision, and for the host's general dot product.  No finiteness is needed: only
  the definitions of the operations and a re-indexing of the sum.
-/
import Idealize.ShloMosaic.PureOps.Ideal
import Idealize.ShloMosaic.PureOps.Ideal.Laws
import Idealize.ShloMosaic.Lib.ValueIdx

noncomputable section

namespace Cert.Lib.DenseNT

open Idealize.ShloMosaic Idealize.ShloMosaic.ValueIdx
open scoped BigOperators

/-- Row `p` of `x` against row `q` of `w`. -/
def rowRowDot {M K N : ℕ} (x : (⟨2, ![M, K]⟩ : Shape).Idx → EReal) (w : (⟨2, ![N, K]⟩ : Shape).Idx → EReal)
    (p : Fin M) (q : Fin N) : EReal :=
  ∑ k : Fin K, x (ix2 p k) * w (ix2 q k)

variable {M K N : ℕ} (D : DotDims ⟨2, ![M, K]⟩ ⟨2, ![N, K]⟩ ⟨2, ![M, N]⟩)
  (hlc : D.lhsContracting = [1]) (hrc : D.rhsContracting = [1])
  (hln : D.lhsNonContracting = [0]) (hrn : D.rhsNonContracting = [0])
  (hlb : D.lhsBatch = []) (hrb : D.rhsBatch = [])

include hlc in
theorem nt_rank : D.contr.rank = 1 := by rw [D.rank_contr, hlc]; rfl

include hlc in
theorem nt_size : D.contr.size ⟨0, by rw [nt_rank D hlc]; exact Nat.one_pos⟩ = K := by
  have := D.size_contr 0 (by rw [hlc]; exact Nat.one_pos)
  rw [this]
  simp [hlc]

include hln hlb in
/-- The left operand's free coordinate is the result's row. -/
theorem nt_lhs0 (j : (⟨2, ![M, N]⟩ : Shape).Idx) (k : D.contr.Idx) : (D.lhsIdx j k 0).val = (j 0).val := by
  have hb : (0 : Fin 2) ∉ D.lhsBatch := by rw [hlb]; simp
  have hn : (0 : Fin 2) ∈ D.lhsNonContracting := by rw [hln]; simp
  unfold DotDims.lhsIdx
  rw [dif_neg hb, dif_pos hn]
  simp only [Fin.val_cast]
  have key : ∀ (p q : Nat) (hp : p < (⟨2, ![M, N]⟩ : Shape).rank) (hq : q < (⟨2, ![M, N]⟩ : Shape).rank), p = q → (j ⟨p, hp⟩).val = (j ⟨q, hq⟩).val :=
    fun p q hp hq h => by subst h; rfl
  exact key _ _ _ _ (by simp [hlb, hln])

include hrn hrb hln hlb in
/-- The right operand's free coordinate, its first, is the result's column. -/
theorem nt_rhs0 (j : (⟨2, ![M, N]⟩ : Shape).Idx) (k : D.contr.Idx) : (D.rhsIdx j k 0).val = (j 1).val := by
  have hb : (0 : Fin 2) ∉ D.rhsBatch := by rw [hrb]; simp
  have hn : (0 : Fin 2) ∈ D.rhsNonContracting := by rw [hrn]; simp
  unfold DotDims.rhsIdx
  rw [dif_neg hb, dif_pos hn]
  simp only [Fin.val_cast]
  have key : ∀ (p q : Nat) (hp : p < (⟨2, ![M, N]⟩ : Shape).rank) (hq : q < (⟨2, ![M, N]⟩ : Shape).rank), p = q → (j ⟨p, hp⟩).val = (j ⟨q, hq⟩).val :=
    fun p q hp hq h => by subst h; rfl
  exact key _ _ _ _ (by simp [hlb, hln, hrn])

include hlc hrc hln hrn hlb hrb in
/-- The contraction at entry `(p, q)` is row `p` of `x` against row `q` of `w`. -/
theorem nt_sum (f : (⟨2, ![M, K]⟩ : Shape).Idx → EReal) (g : (⟨2, ![N, K]⟩ : Shape).Idx → EReal) (p : Fin M) (q : Fin N) :
    ∑ k : D.contr.Idx, f (D.lhsIdx (ix2 p q) k) * g (D.rhsIdx (ix2 p q) k) = rowRowDot f g p q := by
  unfold rowRowDot
  rw [← Equiv.sum_comp (contrEquiv1 D K (nt_rank D hlc) (nt_size D hlc)).symm]
  refine Finset.sum_congr rfl fun k _ => ?_
  have hk := contrEquiv1_symm_val D K (nt_rank D hlc) (nt_size D hlc) k
  have el : D.lhsIdx (ix2 p q) ((contrEquiv1 D K (nt_rank D hlc) (nt_size D hlc)).symm k) = ix2 p k := by
    funext a; apply Fin.ext
    match a with
    | ⟨0, _⟩ => exact nt_lhs0 D hln hlb (ix2 p q) _
    | ⟨1, _⟩ => exact (D.lhsIdx_val_of_single hlc (ix2 p q) _).trans hk
  have er : D.rhsIdx (ix2 p q) ((contrEquiv1 D K (nt_rank D hlc) (nt_size D hlc)).symm k) = ix2 q k := by
    funext a; apply Fin.ext
    match a with
    | ⟨0, _⟩ => exact nt_rhs0 D hln hrn hlb hrb (ix2 p q) _
    | ⟨1, _⟩ => exact (D.rhsIdx_val_of_single hrc (ix2 p q) _).trans hk
  rw [el, er]

include hlc hrc hln hrn hlb hrb in
/-- The matrix unit's product into a zero accumulator, at entry `(p, q)`, whatever the contraction precision. -/
theorem matmul_zero_at {φ₁ φ₂ : FTy} (prec : Option ContractPrecision) (x : FVec Ideal ⟨2, ![M, K]⟩ φ₁) (w : FVec Ideal ⟨2, ![N, K]⟩ φ₂)
    (p : Fin M) (q : Fin N) :
    matmul D prec x w (constant ⟨2, ![M, N]⟩ .f32 0x00000000#32) (ix2 p q) = rowRowDot x w p q :=
  (Ideal.matmul_constant_zero_apply D prec x w (ix2 p q)).trans (nt_sum D hlc hrc hln hrn hlb hrb x w p q)

include hlc hrc hln hrn hlb hrb in
/-- The host's general dot product, at entry `(p, q)`. -/
theorem dotGeneral_at {φ₁ φ₂ : FTy} (x : FVec Ideal ⟨2, ![M, K]⟩ φ₁) (w : FVec Ideal ⟨2, ![N, K]⟩ φ₂) (p : Fin M) (q : Fin N) :
    Host.dotGeneral D none x w (ix2 p q) = rowRowDot x w p q :=
  (Ideal.dotGeneral_apply D none .single x w (ix2 p q)).trans (nt_sum D hlc hrc hln hrn hlb hrb x w p q)

end Cert.Lib.DenseNT

end
-- ==== Proof.LibKeepdims.lean ====
/-
  Three layout facts for row-wise reductions with a kept unit axis (`jnp.sum(x, axis=-1, keepdims=True)` and what
  consumes it), read at an index built from literal coordinates:
    • a column [a, 1] broadcast to [a, b] reads, at (p, c), the column's entry of row p;
    • a vector [a] cast to the column [a, 1] reads, at (i, u), the vector's entry i;
    • the sum of a matrix [a, b] along its second axis, at the extended reals, is at row i the sum over k of the
      entries (i, k).
  They complete the library's small-shape lemmas (which have the row forms [1, b] → [a, b] and [a] → [1, a]).
-/
import Idealize.ShloMosaic.Lib.Pipeline.Value
import Idealize.ShloMosaic.Lib.ValueIdx
import Idealize.ShloMosaic.PureOps.Ideal.Laws

noncomputable section

namespace Cert.Lib.Keepdims

open Idealize.ShloMosaic Idealize.ShloMosaic.ValueIdx
open scoped BigOperators

variable {α : Type}

/-- An `[a, 1]` column broadcast to `[a, b]` reads, at `(p, c)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a]` vector cast to the column `[a, 1]` reads, at `(i, u)`, the vector's entry `i`, whatever the unit
    coordinate `u`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The float sum of an `[a, b]` matrix along its second axis, at the extended reals, is at row `i` the sum of
    that row's entries. -/
theorem rowSum_apply {a b : ℕ} {φ : FTy} (src : FVec Ideal ⟨2, ![a, b]⟩ φ) (acc : BitVec φ.bits)
    (h : (⟨2, ![a, b]⟩ : Shape).Reduces [(1 : Fin 2)] ⟨1, ![a]⟩) (hφ : FKind.Formats φ)
    (hacc : acc = FKind.add.neutral φ hφ) (i : Fin a) :
    multiReduction .add [(1 : Fin 2)] ⟨1, ![a]⟩ src acc h hφ hacc (ix1 i) = ∑ k : Fin b, src (ix2 i k) :=
  (Ideal.multiReduction_add_single src acc h hφ hacc (ix1 i)).trans
    (Finset.sum_congr rfl fun k _ => congrArg src (funext fun c => Fin.ext (by
      match c with
      | ⟨0, _⟩ => rfl
      | ⟨1, _⟩ => rfl)))

end Cert.Lib.Keepdims

end
-- ==== Proof.Payload.lean ====
/-
  What the kernel's body computes, row by row.

  The body handles one batch: a [10000, 256] slab of nodes, in two halves of 5000 rows.  Each half goes through four
  matrix products into a zero accumulator, the first three followed by a maximum against zero; changes of float format
  are the identity on the extended reals.  Entry (p, q) of such a product depends on row p of its left operand only, so
  row p of a half's result is the hidden stack of `Mlp.lean` applied to row p of the half.  The halves are concatenated
  along the rows, and the last product contracts the second axis of both operands, giving the [64, 10000] transposed
  output, to which the bias column is added.
-/
import proofs.«120015_g49924699848964_cont_8to1_c_527_20_alg».proof.Proof.Gen.KernelIdeal.Skeleton
import proofs.«120015_g49924699848964_cont_8to1_c_527_20_alg».proof.Proof.Mlp
import proofs.«120015_g49924699848964_cont_8to1_c_527_20_alg».proof.Proof.LibDense
import proofs.«120015_g49924699848964_cont_8to1_c_527_20_alg».proof.Proof.LibDenseNT
import proofs.«120015_g49924699848964_cont_8to1_c_527_20_alg».proof.Proof.LibKeepdims
import Idealize.ShloMosaic.PureOps.Ideal.Laws
import Idealize.ShloMosaic.Lib.Pipeline.Value
import Idealize.ShloMosaic.Lib.ValueLayout

noncomputable section

namespace Cert.KernelIdeal.Pay

open Cert.KernelIdeal Idealize.ShloMosaic Idealize.ShloMosaic.ValueIdx Cert.Mlp
open Cert.KernelIdeal.Facts₀
open scoped BigOperators

/-- The half-precision zero word is the real zero. -/
theorem zero_bf16 : Ideal.ofBits .bf16 0x0000#16 = 0 := by simp [Ideal.ofBits, Ideal.ieee]

/-! ## One layer of a half, row by row -/

/-- A product of a 5000-row half with a weight matrix, its result narrowed: row `p` is the layer applied to row `p`. -/
theorem plain_layer {φ : FTy} (x : FVec Ideal S5000x256 φ) (w : Vec Ideal S256x256 .f32) (p : Fin 5000) :
    (fun q : Fin 256 => (truncf .bf16 (matmul dot_S5000x256_S256x256_S5000x256_1_0_0_1_n_n none x
        (truncf .bf16 w bitsLt_bf16_f32) (constant (F := Ideal) S5000x256 .f32 0x00000000#32)) bitsLt_bf16_f32 : FVec Ideal S5000x256 .bf16) (ix2 p q))
      = lin w (fun k => x (ix2 p k)) :=
  funext fun q => Cert.Lib.Dense.matmul_zero_at dot_S5000x256_S256x256_S5000x256_1_0_0_1_n_n rfl rfl rfl rfl rfl rfl
    x (truncf .bf16 w bitsLt_bf16_f32) p q

/-- The same followed by the maximum against the half-precision zero: the rectified layer. -/
theorem relu_layer {φ : FTy} (x : FVec Ideal S5000x256 φ) (w : Vec Ideal S256x256 .f32) (p : Fin 5000) :
    (fun q : Fin 256 => (maximumf (truncf .bf16 (matmul dot_S5000x256_S256x256_S5000x256_1_0_0_1_n_n none x
        (truncf .bf16 w bitsLt_bf16_f32) (constant (F := Ideal) S5000x256 .f32 0x00000000#32)) bitsLt_bf16_f32 : FVec Ideal S5000x256 .bf16)
        (broadcast S5000x256 (Scalar.ofBits (F := Ideal) .bf16 0x0000#16))) (ix2 p q))
      = relu (lin w (fun k => x (ix2 p k))) :=
  funext fun q => by
    show max _ (Ideal.ofBits .bf16 0x0000#16) = max _ 0
    rw [zero_bf16]
    exact congrArg (fun v => max v 0) (congrFun (plain_layer x w p) q)

/-- A half as loaded, [1, 5000, 256], with its unit axis dropped and narrowed: row `p` is row `(0, p)` of the load. -/
theorem half_rows (v : Vec Ideal S1x5000x256 .f32) (p : Fin 5000) :
    (fun k : Fin 256 => (truncf .bf16 (shapeCast S5000x256 v shapeCasts_S1x5000x256_S5000x256) bitsLt_bf16_f32 : FVec Ideal S5000x256 .bf16) (ix2 p k))
      = fun d => v (ix3 (0 : Fin 1) p d) :=
  funext fun k => shapeCast_1ab_ab_apply v shapeCasts_S1x5000x256_S5000x256 p k

/-! ## The three payloads -/

/-- The first half through all four layers. -/
theorem first_half_row (v0 : Vec Ideal S1x5000x256 .f32) (v2 v9 v15 v21 : Vec Ideal S256x256 .f32) (p : Fin 5000) :
    (fun q : Fin 256 => Gen.k0_pay2 v0 v2 v9 v15 v21 (ix2 p q)) = Mlp.hidden v2 v9 v15 v21 (fun d => v0 (ix3 (0 : Fin 1) p d)) := by
  unfold Gen.k0_pay2 Mlp.hidden
  refine (plain_layer _ v21 p).trans (congrArg (lin v21) ?_)
  refine (relu_layer _ v15 p).trans (congrArg (fun r => relu (lin v15 r)) ?_)
  refine (relu_layer _ v9 p).trans (congrArg (fun r => relu (lin v9 r)) ?_)
  refine (relu_layer _ v2 p).trans (congrArg (fun r => relu (lin v2 r)) ?_)
  exact half_rows v0 p

/-- The second half through its first rectified layer. -/
theorem second_half_row (v25 : Vec Ideal S1x5000x256 .f32) (v27 : Vec Ideal S256x256 .f32) (p : Fin 5000) :
    (fun q : Fin 256 => Gen.k0_pay3 v25 v27 (ix2 p q)) = relu (lin v27 (fun d => v25 (ix3 (0 : Fin 1) p d))) := by
  unfold Gen.k0_pay3
  refine (relu_layer _ v27 p).trans (congrArg (fun r => relu (lin v27 r)) ?_)
  exact half_rows v25 p

/-- The second half's remaining three layers. -/
theorem second_half_rest (v33 : FVec Ideal S5000x256 .bf16) (v34 v40 v46 : Vec Ideal S256x256 .f32) (p : Fin 5000) :
    (fun q : Fin 256 => (truncf .bf16 (matmul dot_S5000x256_S256x256_S5000x256_1_0_0_1_n_n none
        (maximumf (truncf .bf16 (matmul dot_S5000x256_S256x256_S5000x256_1_0_0_1_n_n none
          (maximumf (truncf .bf16 (matmul dot_S5000x256_S256x256_S5000x256_1_0_0_1_n_n none v33
              (truncf .bf16 v34 bitsLt_bf16_f32) (constant (F := Ideal) S5000x256 .f32 0x00000000#32)) bitsLt_bf16_f32 : FVec Ideal S5000x256 .bf16)
            (broadcast S5000x256 (Scalar.ofBits (F := Ideal) .bf16 0x0000#16)))
          (truncf .bf16 v40 bitsLt_bf16_f32) (constant (F := Ideal) S5000x256 .f32 0x00000000#32)) bitsLt_bf16_f32 : FVec Ideal S5000x256 .bf16)
          (broadcast S5000x256 (Scalar.ofBits (F := Ideal) .bf16 0x0000#16)))
        (truncf .bf16 v46 bitsLt_bf16_f32) (constant (F := Ideal) S5000x256 .f32 0x00000000#32)) bitsLt_bf16_f32 : FVec Ideal S5000x256 .bf16) (ix2 p q))
      = lin v46 (relu (lin v40 (relu (lin v34 (fun k => v33 (ix2 p k)))))) := by
  refine (plain_layer _ v46 p).trans (congrArg (lin v46) ?_)
  refine (relu_layer _ v40 p).trans (congrArg (fun r => relu (lin v40 r)) ?_)
  exact relu_layer v33 v34 p

/-! ## The halves laid end to end -/

/-- Row `n` of the concatenation, for `n` in the first half, is row `n` of the first piece. -/
theorem concat_first (a b : FVec Ideal S5000x256 .bf16) (n : Fin 10000) (p : Fin 5000) (hp : p.val = n.val) (d : Fin 256) :
    concatenate S10000x256 0 [⟨S5000x256, a⟩, ⟨S5000x256, b⟩] concatenates_S5000x256_S5000x256_S10000x256_d0 (ix2 n d) = a (ix2 p d) :=
  concatenate_pair_apply_left (0 : Fin S10000x256.rank) a b concatenates_S5000x256_S5000x256_S10000x256_d0 (ix2 n d) rfl (ix2 p d)
    (fun ax => match ax with | ⟨0, _⟩ => hp | ⟨1, _⟩ => rfl)

/-- Row `n` of the concatenation, for `n` in the second half, is row `n - 5000` of the second piece. -/
theorem concat_second (a b : FVec Ideal S5000x256 .bf16) (n : Fin 10000) (p : Fin 5000) (hp : p.val + 5000 = n.val) (d : Fin 256) :
    concatenate S10000x256 0 [⟨S5000x256, a⟩, ⟨S5000x256, b⟩] concatenates_S5000x256_S5000x256_S10000x256_d0 (ix2 n d) = b (ix2 p d) :=
  concatenate_pair_apply_right (0 : Fin S10000x256.rank) a b concatenates_S5000x256_S5000x256_S10000x256_d0 (ix2 n d) rfl rfl (ix2 p d)
    (fun ax hne => match ax with | ⟨0, _⟩ => absurd rfl hne | ⟨1, _⟩ => rfl) hp

/-! ## The transposed last product and the bias column -/

/-- The classifier weights `w` (stored [64, 256]) against the 10000 hidden rows `h`, both contracted along their second
    axis, plus the bias as a column broadcast along the nodes, with a unit axis put in front: entry `(0, k, n)` is
    `∑ d, w(k, d) · h(n, d) + bias(0, k)`. -/
theorem classify_at (w : Vec Ideal S64x256 .f32) (h : FVec Ideal S10000x256 .bf16) (bv : Vec Ideal S1x64 .f32) (k : Fin 64) (n : Fin 10000) :
    (shapeCast S1x64x10000 (addf (matmul dot_S64x256_S10000x256_S64x10000_1_1_0_0_n_n none
        (truncf .bf16 (shapeCast S64x256 w shapeCasts_S64x256_S64x256) bitsLt_bf16_f32) h (constant (F := Ideal) S64x10000 .f32 0x00000000#32))
        (broadcastTo S64x10000 (shapeCast S64x1 (shapeCast S64 bv shapeCasts_S1x64_S64) shapeCasts_S64_S64x1) broadcasts_S64x1_S64x10000))
      shapeCasts_S64x10000_S1x64x10000 : FVec Ideal S1x64x10000 .f32) (ix3 (0 : Fin 1) k n)
      = (∑ d : Fin 256, w (ix2 k d) * h (ix2 n d)) + bv (ix2 (0 : Fin 1) k) := by
  refine (shapeCast_ab_1ab_apply _ shapeCasts_S64x10000_S1x64x10000 (0 : Fin 1) k n).trans ?_
  refine congrArg₂ (· + ·) ?_ ?_
  · refine (Cert.Lib.DenseNT.matmul_zero_at dot_S64x256_S10000x256_S64x10000_1_1_0_0_n_n rfl rfl rfl rfl rfl rfl none
      (truncf .bf16 (shapeCast S64x256 w shapeCasts_S64x256_S64x256) bitsLt_bf16_f32) h k n).trans ?_
    exact Finset.sum_congr rfl fun d _ =>
      congrArg (· * h (ix2 n d)) (congrFun (shapeCast_self w shapeCasts_S64x256_S64x256) (ix2 k d))
  · refine (Cert.Lib.Keepdims.broadcastTo_a1_ab_apply _ broadcasts_S64x1_S64x10000 k n).trans ?_
    refine (Cert.Lib.Keepdims.shapeCast_a_a1_apply _ shapeCasts_S64_S64x1 k (0 : Fin 1)).trans ?_
    exact shapeCast_1a_a_apply bv shapeCasts_S1x64_S64 k

/-! ## The whole body at an index -/

/-- The body's stored value at `(0, k, n)`, with `A` and `B` the two halves of the slab `x0` as loaded: output `k` of
    node `n`, the classifier's products written weight first. -/
theorem body_at (x0 : Vec Ideal S1x10000x256 .f32) (A B : Vec Ideal S1x5000x256 .f32) (x1 x2 x3 x4 : Vec Ideal S256x256 .f32)
    (x5 : Vec Ideal S64x256 .f32) (x6 : Vec Ideal S1x64 .f32)
    (hA : ∀ (p : Fin 5000) (n : Fin 10000), p.val = n.val → (fun d : Fin 256 => A (ix3 (0 : Fin 1) p d)) = fun d => x0 (ix3 (0 : Fin 1) n d))
    (hB : ∀ (p : Fin 5000) (n : Fin 10000), p.val + 5000 = n.val → (fun d : Fin 256 => B (ix3 (0 : Fin 1) p d)) = fun d => x0 (ix3 (0 : Fin 1) n d))
    (k : Fin 64) (n : Fin 10000) :
    Gen.k0_pay1 (Gen.k0_pay2 A x1 x2 x3 x4) (Gen.k0_pay3 B x1) x2 x3 x4 x5 x6 (ix3 (0 : Fin 1) k n)
      = (∑ d : Fin 256, x5 (ix2 k d) * Mlp.hidden x1 x2 x3 x4 (fun e => x0 (ix3 (0 : Fin 1) n e)) d) + x6 (ix2 (0 : Fin 1) k) := by
  unfold Gen.k0_pay1
  refine (classify_at x5 _ x6 k n).trans ?_
  refine congrArg (· + x6 (ix2 (0 : Fin 1) k)) (Finset.sum_congr rfl fun d _ => congrArg (x5 (ix2 k d) * ·) ?_)
  by_cases hn : n.val < 5000
  · refine (concat_first _ _ n ⟨n.val, hn⟩ rfl d).trans ?_
    refine (congrFun (first_half_row A x1 x2 x3 x4 ⟨n.val, hn⟩) d).trans ?_
    rw [hA ⟨n.val, hn⟩ n rfl]
  · have hlt : n.val - 5000 < 5000 := by have := n.isLt; omega
    have hp : (⟨n.val - 5000, hlt⟩ : Fin 5000).val + 5000 = n.val := by show n.val - 5000 + 5000 = n.val; omega
    refine (concat_second _ _ n ⟨n.val - 5000, hlt⟩ hp d).trans ?_
    refine (congrFun (second_half_rest (Gen.k0_pay3 B x1) x2 x3 x4 ⟨n.val - 5000, hlt⟩) d).trans ?_
    rw [second_half_row B x1 ⟨n.val - 5000, hlt⟩, hB ⟨n.val - 5000, hlt⟩ n hp]
    rfl

end Cert.KernelIdeal.Pay

end
-- ==== Proof.Region.lean ====
/-
  The array the kernel's region leaves, as one function of the arrays it finds.

  The grid has four points, one per batch.  Point t stages slab t of the [4, 10000, 256] input (its block index is
  (t, 0, 0)) and the five weight arrays and the bias whole (block index (0, 0)), and writes back slab t of the
  [4, 64, 10000] output.  So what point t writes is, at (0, k, n), output k of node n of batch t, and the four slabs
  tile the output array: entry (b, k, n) of the array after the region is output k of node (b, n), with the classifier's
  weights read transposed and the bias read from its one row.
-/
import proofs.«120015_g49924699848964_cont_8to1_c_527_20_alg».proof.Proof.Gen.KernelIdeal.Frame
import proofs.«120015_g49924699848964_cont_8to1_c_527_20_alg».proof.Proof.Payload
import Idealize.ShloMosaic.Lib.Pipeline.Value

set_option maxRecDepth 16384

noncomputable section

namespace Cert.KernelIdeal.Region

open Cert.KernelIdeal Cert.KernelIdeal.Gen Idealize.ShloMosaic Idealize.ShloMosaic.TcCoe Idealize.ShloMosaic.ValueIdx Idealize.SL.Sem
open Idealize.ShloMosaic.Pipeline (Dat)
open scoped BigOperators

theorem zeros3 : (![0, 0, 0] : Fin 3 → Nat) = fun _ => 0 := funext fun a => by fin_cases a <;> rfl
theorem zeros2 : (![0, 0] : Fin 2 → Nat) = fun _ => 0 := funext fun a => by fin_cases a <;> rfl

/-- Entry `(b, k, n)` of the region's output: output `k` of node `(b, n)`, from the input `a0`, the four hidden weight
    matrices, the classifier's weights `a5` stored [64, 256] and the bias `a6` stored [1, 64]. -/
def regionOut (a0 : S4x10000x256.Idx → EReal) (a1 a2 a3 a4 : S256x256.Idx → EReal) (a5 : S64x256.Idx → EReal)
    (a6 : S1x64.Idx → EReal) : S4x64x10000.Idx → EReal :=
  fun i => (∑ d : Fin 256, a5 (ix2 (i 1) d) * Mlp.hidden a1 a2 a3 a4 (Mlp.node a0 (i 0) (i 2)) d) + a6 (ix2 (0 : Fin 1) (i 1))

theorem regionOut_ix3 (a0 : S4x10000x256.Idx → EReal) (a1 a2 a3 a4 : S256x256.Idx → EReal) (a5 : S64x256.Idx → EReal)
    (a6 : S1x64.Idx → EReal) (b : Fin 4) (k : Fin 64) (n : Fin 10000) :
    regionOut a0 a1 a2 a3 a4 a5 a6 (ix3 b k n)
      = (∑ d : Fin 256, a5 (ix2 k d) * Mlp.hidden a1 a2 a3 a4 (Mlp.node a0 b n) d) + a6 (ix2 (0 : Fin 1) k) := rfl

/-! ## What the body leaves in the output's staging buffer -/

/-- The one store covers the buffer and the weight loads are whole; the two loads of the slab are its halves. -/
theorem out_at (x0 : Vec Ideal S1x10000x256 .f32) (x1 x2 x3 x4 : Vec Ideal S256x256 .f32) (x5 : Vec Ideal S64x256 .f32)
    (x6 : Vec Ideal S1x64 .f32) (k : Fin 64) (n : Fin 10000) :
    out0_7 x0 x1 x2 x3 x4 x5 x6 (ix3 (0 : Fin 1) k n)
      = (∑ d : Fin 256, x5 (ix2 k d) * Mlp.hidden x1 x2 x3 x4 (fun e => x0 (ix3 (0 : Fin 1) n e)) d) + x6 (ix2 (0 : Fin 1) k) := by
  unfold out0_7
  rw [View.canon_unit_zero zeros3]
  simp only [View.ld_unit_zero (S := S256x256) zeros2, View.ld_unit_zero (S := S64x256) zeros2, View.ld_unit_zero (S := S1x64) zeros2]
  refine Pay.body_at x0 (View.ld x0 r0_0) (View.ld x0 r0_2) x1 x2 x3 x4 x5 x6 (fun p n hp => ?_) (fun p n hp => ?_) k n
  · funext d
    show x0 (r0_0.idx (ix3 (0 : Fin 1) p d)) = x0 (ix3 (0 : Fin 1) n d)
    refine congrArg x0 (funext fun a => Fin.ext ?_)
    match a with
    | ⟨0, _⟩ => rfl
    | ⟨1, _⟩ => show 0 + 1 * p.val = n.val; omega
    | ⟨2, _⟩ => show 0 + 1 * d.val = d.val; omega
  · funext d
    show x0 (r0_2.idx (ix3 (0 : Fin 1) p d)) = x0 (ix3 (0 : Fin 1) n d)
    refine congrArg x0 (funext fun a => Fin.ext ?_)
    match a with
    | ⟨0, _⟩ => rfl
    | ⟨1, _⟩ => show 5000 + 1 * p.val = n.val; omega
    | ⟨2, _⟩ => show 0 + 1 * d.val = d.val; omega

/-! ## The printed index maps over the grid -/

theorem idx_facts : ∀ t : Fin cfg0.N, t.val < 4
    ∧ win0_0.index t (0 : Fin 3) = t.val ∧ win0_0.index t (1 : Fin 3) = 0 ∧ win0_0.index t (2 : Fin 3) = 0
    ∧ win0_7.index t (0 : Fin 3) = t.val ∧ win0_7.index t (1 : Fin 3) = 0 ∧ win0_7.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0 :=
  (by decide +kernel : ∀ t : Fin grid0.N, _)

variable (m : (ℓ : Loc nD τ sig) → Buf (Elt Ideal) ℓ)

/-! ## The staged blocks are the arrays read where the point says -/

theorem slab_row (c : Dev nD) (t : Fin cfg0.N) (b : Fin 4) (hb : b.val = t.val) (n : Fin 10000) :
    (fun e : Fin 256 => iblk m c 0 t (ix3 (0 : Fin 1) n e)) = Mlp.node (V m c main_arg0) b n := by
  obtain ⟨-, e0, e1, e2, -⟩ := idx_facts t
  funext e
  show V m c main_arg0 (((cfg0.win 0).blk t).view.emb (ix3 (0 : Fin 1) n e)) = V m c main_arg0 (ix3 b n e)
  refine congrArg (V m c main_arg0) (funext fun a => Fin.ext ?_)
  match a with
  | ⟨0, _⟩ => show win0_0.index t (0 : Fin 3) * 1 + 1 * 0 = b.val; omega
  | ⟨1, _⟩ => show win0_0.index t (1 : Fin 3) * 10000 + 1 * n.val = n.val; omega
  | ⟨2, _⟩ => show win0_0.index t (2 : Fin 3) * 256 + 1 * e.val = e.val; omega

theorem whole1 (c : Dev nD) (t : Fin cfg0.N) : (iblk m c 1 t : Vec Ideal S256x256 .f32) = V m c main_arg1 := by
  obtain ⟨-, -, -, -, -, -, -, e0, e1, -⟩ := idx_facts t
  funext j
  show V m c main_arg1 (((cfg0.win 1).blk t).view.emb j) = V m c main_arg1 j
  refine congrArg (V m c main_arg1) (funext fun a => Fin.ext ?_)
  match a with
  | ⟨0, _⟩ => show win0_1.index t (0 : Fin 2) * 256 + 1 * (j 0).val = (j 0).val; omega
  | ⟨1, _⟩ => show win0_1.index t (1 : Fin 2) * 256 + 1 * (j 1).val = (j 1).val; omega

theorem whole2 (c : Dev nD) (t : Fin cfg0.N) : (iblk m c 2 t : Vec Ideal S256x256 .f32) = V m c main_arg2 := by
  obtain ⟨-, -, -, -, -, -, -, -, -, e0, e1, -⟩ := idx_facts t
  funext j
  show V m c main_arg2 (((cfg0.win 2).blk t).view.emb j) = V m c main_arg2 j
  refine congrArg (V m c main_arg2) (funext fun a => Fin.ext ?_)
  match a with
  | ⟨0, _⟩ => show win0_2.index t (0 : Fin 2) * 256 + 1 * (j 0).val = (j 0).val; omega
  | ⟨1, _⟩ => show win0_2.index t (1 : Fin 2) * 256 + 1 * (j 1).val = (j 1).val; omega

theorem whole3 (c : Dev nD) (t : Fin cfg0.N) : (iblk m c 3 t : Vec Ideal S256x256 .f32) = V m c main_arg3 := by
  obtain ⟨-, -, -, -, -, -, -, -, -, -, -, e0, e1, -⟩ := idx_facts t
  funext j
  show V m c main_arg3 (((cfg0.win 3).blk t).view.emb j) = V m c main_arg3 j
  refine congrArg (V m c main_arg3) (funext fun a => Fin.ext ?_)
  match a with
  | ⟨0, _⟩ => show win0_3.index t (0 : Fin 2) * 256 + 1 * (j 0).val = (j 0).val; omega
  | ⟨1, _⟩ => show win0_3.index t (1 : Fin 2) * 256 + 1 * (j 1).val = (j 1).val; omega

theorem whole4 (c : Dev nD) (t : Fin cfg0.N) : (iblk m c 4 t : Vec Ideal S256x256 .f32) = V m c main_arg4 := by
  obtain ⟨-, -, -, -, -, -, -, -, -, -, -, -, -, e0, e1, -⟩ := idx_facts t
  funext j
  show V m c main_arg4 (((cfg0.win 4).blk t).view.emb j) = V m c main_arg4 j
  refine congrArg (V m c main_arg4) (funext fun a => Fin.ext ?_)
  match a with
  | ⟨0, _⟩ => show win0_4.index t (0 : Fin 2) * 256 + 1 * (j 0).val = (j 0).val; omega
  | ⟨1, _⟩ => show win0_4.index t (1 : Fin 2) * 256 + 1 * (j 1).val = (j 1).val; omega

theorem whole5 (c : Dev nD) (t : Fin cfg0.N) : (iblk m c 5 t : Vec Ideal S64x256 .f32) = V m c main_v0 := by
  obtain ⟨-, -, -, -, -, -, -, -, -, -, -, -, -, -, -, e0, e1, -⟩ := idx_facts t
  funext j
  show V m c main_v0 (((cfg0.win 5).blk t).view.emb j) = V m c main_v0 j
  refine congrArg (V m c main_v0) (funext fun a => Fin.ext ?_)
  match a with
  | ⟨0, _⟩ => show win0_5.index t (0 : Fin 2) * 64 + 1 * (j 0).val = (j 0).val; omega
  | ⟨1, _⟩ => show win0_5.index t (1 : Fin 2) * 256 + 1 * (j 1).val = (j 1).val; omega

theorem whole6 (c : Dev nD) (t : Fin cfg0.N) : (iblk m c 6 t : Vec Ideal S1x64 .f32) = V m c main_v1 := by
  obtain ⟨-, -, -, -, -, -, -, -, -, -, -, -, -, -, -, -, -, e0, e1⟩ := idx_facts t
  funext j
  show V m c main_v1 (((cfg0.win 6).blk t).view.emb j) = V m c main_v1 j
  refine congrArg (V m c main_v1) (funext fun a => Fin.ext ?_)
  match a with
  | ⟨0, _⟩ => show win0_6.index t (0 : Fin 2) * 1 + 1 * (j 0).val = (j 0).val; omega
  | ⟨1, _⟩ => show win0_6.index t (1 : Fin 2) * 64 + 1 * (j 1).val = (j 1).val; omega

/-! ## What a point writes back, the cover, the array -/

/-- The region's output as a function of what the region finds. -/
abbrev found (c : Dev nD) : S4x64x10000.Idx → EReal :=
  regionOut (V m c main_arg0) (V m c main_arg1) (V m c main_arg2) (V m c main_arg3) (V m c main_arg4) (V m c main_v0) (V m c main_v1)

/-- What point `t` leaves at `(0, k, n)` is entry `(t, k, n)` of the region's output. -/
theorem left_at (c : Dev nD) (t : Fin cfg0.N) (b : Fin 4) (hb : b.val = t.val) (k : Fin 64) (n : Fin 10000) :
    out0_7 (iblk m c 0 t) (iblk m c 1 t) (iblk m c 2 t) (iblk m c 3 t) (iblk m c 4 t) (iblk m c 5 t) (iblk m c 6 t) (ix3 (0 : Fin 1) k n)
      = found m c (ix3 b k n) := by
  refine (out_at (iblk m c 0 t) (iblk m c 1 t) (iblk m c 2 t) (iblk m c 3 t) (iblk m c 4 t) (iblk m c 5 t) (iblk m c 6 t) k n).trans ?_
  rw [slab_row m c t b hb n, whole1 m c t, whole2 m c t, whole3 m c t, whole4 m c t, whole5 m c t, whole6 m c t]
  rfl

/-- WHAT POINT `t` WRITES BACK is block `t` of the region's output. -/
theorem flushed_eq (c : Dev nD) (t : Fin cfg0.N) :
    (dats m 0 c).flushed 7 t = ((cfg0.win 7).blk t).view.read (Elt Ideal) (found m c) := by
  show (cfg0.win 7).cut (grid0.coords t) ((dats m 0 c).after 7 t) = _
  rw [after0_7]
  obtain ⟨ht, -, -, -, e0, e1, e2, -⟩ := idx_facts t
  funext j
  have hj0 : (j 0).val < 1 := (j 0).isLt
  have hj : j = ix3 (0 : Fin 1) ⟨(j 1).val, (j 1).isLt⟩ ⟨(j 2).val, (j 2).isLt⟩ :=
    funext fun a => Fin.ext (by
      match a with
      | ⟨0, _⟩ => show (j 0).val = 0; omega
      | ⟨1, _⟩ => rfl
      | ⟨2, _⟩ => rfl)
  show out0_7 (iblk m c 0 t) (iblk m c 1 t) (iblk m c 2 t) (iblk m c 3 t) (iblk m c 4 t) (iblk m c 5 t) (iblk m c 6 t) j
    = found m c (((cfg0.win 7).blk t).view.emb j)
  rw [hj]
  refine (left_at m c t ⟨t.val, ht⟩ rfl ⟨(j 1).val, (j 1).isLt⟩ ⟨(j 2).val, (j 2).isLt⟩).trans ?_
  refine congrArg (found m c) (funext fun a => Fin.ext ?_)
  match a with
  | ⟨0, _⟩ => show t.val = win0_7.index t (0 : Fin 3) * 1 + 1 * 0; omega
  | ⟨1, _⟩ => show (j 1).val = win0_7.index t (1 : Fin 3) * 64 + 1 * (j 1).val; omega
  | ⟨2, _⟩ => show (j 2).val = win0_7.index t (2 : Fin 3) * 10000 + 1 * (j 2).val; omega

/-- An index of the output array is in point `t`'s block iff each coordinate is in the block's range on its axis. -/
theorem mem_blk (t : Fin cfg0.N) (i : S4x64x10000.Idx) :
    i ∈ ((cfg0.win 7).blk t).view.set ↔ ∀ a : Fin 3, win0_7.index t a * S1x64x10000.size a ≤ (i a).val
      ∧ (i a).val < win0_7.index t a * S1x64x10000.size a + S1x64x10000.size a := by
  show i ∈ ((View.whole main_v2).slice (win0_7.rect t)).set ↔ _
  rw [View.set_slice_whole, Rect.mem_set_unit]
  exact Iff.rfl

/-- Every index of the output array lies in the block of the point of its batch. -/
theorem cover (i : S4x64x10000.Idx) : ∃ t : Fin cfg0.N, (cfg0.win 7).flush t = true ∧ i ∈ ((cfg0.win 7).blk t).view.set := by
  have h0 : (i 0).val < 4 := (i 0).isLt
  have h1 : (i 1).val < 64 := (i 1).isLt
  have h2 : (i 2).val < 10000 := (i 2).isLt
  have hN : cfg0.N = 4 := N_0
  refine ⟨⟨(i 0).val, by rw [hN]; exact h0⟩, flush0_7 _, ?_⟩
  rw [mem_blk]
  obtain ⟨-, -, -, -, e0, e1, e2, -⟩ := idx_facts ⟨(i 0).val, by rw [hN]; exact h0⟩
  intro a
  match a with
  | ⟨0, _⟩ =>
    show win0_7.index _ (0 : Fin 3) * 1 ≤ (i 0).val ∧ (i 0).val < win0_7.index _ (0 : Fin 3) * 1 + 1
    rw [e0]; show (i 0).val * 1 ≤ (i 0).val ∧ (i 0).val < (i 0).val * 1 + 1; omega
  | ⟨1, _⟩ =>
    show win0_7.index _ (1 : Fin 3) * 64 ≤ (i 1).val ∧ (i 1).val < win0_7.index _ (1 : Fin 3) * 64 + 64
    rw [e1]; omega
  | ⟨2, _⟩ =>
    show win0_7.index _ (2 : Fin 3) * 10000 ≤ (i 2).val ∧ (i 2).val < win0_7.index _ (2 : Fin 3) * 10000 + 10000
    rw [e2]; omega

/-- THE ARRAY after the region. -/
theorem final (c : Dev nD) : (dats m 0 c).arrAt 7 cfg0.N = found m c :=
  (dats m 0 c).arrAt_eq_of_cover 7 (found m c) (fun t _ => flushed_eq m c t) cover

end Cert.KernelIdeal.Region

end
-- ==== Proof.HostSide.lean ====
/-
  The three host operations around the kernel's region, read as values.

  Before the region the classifier weights [256, 64] are transposed to [64, 256] and the bias [64] is given a leading
  unit axis; after it the region's [4, 64, 10000] result is transposed back to [4, 10000, 64].  Each is the operation
  applied to the memory the program was launched from, respectively to the array the region leaves.
-/
import proofs.«120015_g49924699848964_cont_8to1_c_527_20_alg».proof.Proof.Gen.KernelIdeal.Frame
import Idealize.ShloMosaic.Lib.StableHlo.Run
import Idealize.ShloMosaic.PureOps.Ideal

noncomputable section

namespace Cert.KernelIdeal.HostSide

open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ)

/-- The region finds the classifier weights transposed. -/
theorem weights_transposed (c : Dev nD) :
    V m c main_v0 = transpose S64x256 [1, 0] (m ((c : Thread nD τ).loc main_arg5)) Facts₀.transposes_S256x64_S64x256_1_0 := by
  show StableHlo.after hostOps0 (fun b => m (c, b)) (Proc.devRef .tc main_v0) = _
  after_results <;> rfl

/-- The region finds the bias as a one-row matrix. -/
theorem bias_row (c : Dev nD) :
    V m c main_v1 = shapeCast S1x64 (m ((c : Thread nD τ).loc main_arg6)) Facts₀.shapeCasts_S64_S1x64 := by
  show StableHlo.after hostOps0 (fun b => m (c, b)) (Proc.devRef .tc main_v1) = _
  after_results <;> rfl

/-- The program's result is the transpose, node axis against output axis, of the array the region leaves. -/
theorem result_transposed (c : Dev nD) :
    Pipeline.afterTail₀ cfgs (dats m) 0 (V0 m) [hostOps1] c main_v3
      = transpose S4x10000x64 [0, 2, 1] ((dats m 0 c).arrAt 7 cfg0.N) Facts₀.transposes_S4x64x10000_S4x10000x64_0_2_1 := by
  unfold Pipeline.afterTail₀
  show StableHlo.after hostOps1 _ (Proc.devRef .tc main_v3) = _
  after_results
  exact congrArg (fun A => transpose S4x10000x64 [0, 2, 1] A Facts₀.transposes_S4x64x10000_S4x10000x64_0_2_1)
    (Pipeline.withArrays_arr spec0 launch0.win.arr_inj c (V0 m c) (fun w => (dats m 0 c).arrAt w cfg0.N) 7)

end Cert.KernelIdeal.HostSide

end
-- ==== Proof.KernelRun.lean ====
/-
  The kernel's program computes the network of `Mlp.lean`.

  The region leaves, at (b, k, n), output k of node (b, n) with the classifier's weights read from their transpose and the
  bias from its one-row copy; the final transpose exchanges k and n.  Reading the transposed weights at (k, d) gives the
  weights at (d, k), so the classifier's sum is the reference's with the two factors of each product exchanged — equal
  because the product of extended reals is commutative; no other law is used and no finiteness is needed.
-/
import proofs.«120015_g49924699848964_cont_8to1_c_527_20_alg».proof.Proof.Region
import proofs.«120015_g49924699848964_cont_8to1_c_527_20_alg».proof.Proof.HostSide
import proofs.«120015_g49924699848964_cont_8to1_c_527_20_alg».proof.Proof.Mlp
import Idealize.ShloMosaic.Lib.ValueLayout

noncomputable section

namespace Cert.KernelIdeal.Run

open Cert.KernelIdeal Cert.KernelIdeal.Gen Idealize.ShloMosaic Idealize.ShloMosaic.TcCoe Idealize.ShloMosaic.ValueIdx Idealize.SL.Sem
open scoped BigOperators

variable (m : (ℓ : Loc nD τ sig) → Buf (Elt Ideal) ℓ) (ρ : Dev nD → PrngReg)

/-- The network of the arrays the program was launched with. -/
abbrev launched (c : Dev nD) : S4x10000x64.Idx → EReal :=
  Mlp.net (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))

/-- The region's output, transposed back, is the network of the launch arrays. -/
theorem transposed_found (c : Dev nD) :
    transpose S4x10000x64 [0, 2, 1] (Region.found m c) Facts₀.transposes_S4x64x10000_S4x10000x64_0_2_1 = launched m c := by
  funext i
  obtain ⟨b, n, k, rfl⟩ : ∃ (b : Fin 4) (n : Fin 10000) (k : Fin 64), i = ix3 b n k := ⟨i 0, i 1, i 2, eq_ix3 i⟩
  rw [transpose_ix3_021_apply]
  unfold launched Region.found
  rw [Mlp.net_ix3, Region.regionOut_ix3, V_main_arg0, V_main_arg1, V_main_arg2, V_main_arg3, V_main_arg4,
    HostSide.weights_transposed, HostSide.bias_row]
  exact congrArg₂ (· + ·)
    (Mlp.lin_transposed (m ((c : Thread nD τ).loc main_arg5)) _ (fun k d => transpose_ix2_apply _ Facts₀.transposes_S256x64_S64x256_1_0 k d) _ k)
    (shapeCast_a_1a_apply (m ((c : Thread nD τ).loc main_arg6)) Facts₀.shapeCasts_S64_S1x64 (0 : Fin 1) k)

/-- Every weakly fair execution of the kernel's program terminates with the result array at the network of the launch
    arrays, the arguments unchanged. -/
theorem run : θ_run defs (onTc (τ := τ) (main (F := Ideal))) ⟨m, fun _ => 0, ρ⟩ (fun r => ∀ c : Dev nD,
      r.2.mem ((c.tc : Thread nD τ).loc main_v3) = launched m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨
      ((h c).2 main_v3 (Pipeline.mem_restRefs_of main_v3 (by decide) (by decide))).trans
        ((HostSide.result_transposed m c).trans
          ((congrArg (fun A => transpose S4x10000x64 [0, 2, 1] A Facts₀.transposes_S4x64x10000_S4x10000x64_0_2_1) (Region.final m c)).trans
            (transposed_found m c))),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c))),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c)⟩)
    (run_main m ρ)

end Cert.KernelIdeal.Run

end
-- ==== Proof.lean ====
/-
  A fused per-node perceptron against its layer-by-layer reference, on the extended reals.

  Both programs apply, to every node's row of 256 features, three rectified 256 × 256 layers, a fourth plain one and a
  256 → 64 classifier with a bias.  The kernel walks the four batches one grid point each, every batch in two halves of
  5000 nodes, keeps the classifier's weights transposed and produces its output transposed ([4, 64, 10000]), which a final
  transpose puts back; the reference treats the [4, 10000, 256] array at once.  With changes of float format the identity,
  both are the same sums index by index, up to the order of the two factors in the classifier's products.  The kernel's
  result is read off its frame run (the blocks the four points write tile the output), the reference's off its run; the
  three frames are the generated ones and the idealization rewrote nothing.
-/
import proofs.«120015_g49924699848964_cont_8to1_c_527_20_alg».proof.Defs
import proofs.«120015_g49924699848964_cont_8to1_c_527_20_alg».proof.Proof.Gen.Kernel
import proofs.«120015_g49924699848964_cont_8to1_c_527_20_alg».proof.Proof.Gen.Kernel.Frame
import proofs.«120015_g49924699848964_cont_8to1_c_527_20_alg».proof.Proof.Gen.KernelIdeal
import proofs.«120015_g49924699848964_cont_8to1_c_527_20_alg».proof.Proof.Gen.KernelIdeal.Frame
import proofs.«120015_g49924699848964_cont_8to1_c_527_20_alg».proof.Proof.Gen.ReferenceIdeal
import proofs.«120015_g49924699848964_cont_8to1_c_527_20_alg».proof.Proof.Gen.Pre_finite_inputs
import proofs.«120015_g49924699848964_cont_8to1_c_527_20_alg».proof.Proof.Gen.ReferenceIdeal.Read
import proofs.«120015_g49924699848964_cont_8to1_c_527_20_alg».proof.Proof.RefNet
import proofs.«120015_g49924699848964_cont_8to1_c_527_20_alg».proof.Proof.KernelRun
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ
theorem frame_kernel_ideal : Cert.frame_KernelIdeal := fun m ρ _ => Cert.KernelIdeal.Gen.frame m ρ
theorem frame_reference_ideal : Cert.frame_ReferenceIdeal := fun m ρ _ =>
  (θ_run Cert.ReferenceIdeal.defs _ _).mono (fun _ h c => (h c).2) (Cert.ReferenceIdeal.Value.run (F := Ideal) m ρ)

/-- From memories that agree on the seven arguments both programs end with the network of those arguments. -/
theorem algebraic : Cert.algebraic_KernelIdeal_ReferenceIdeal := by
  intro m ρ m' ρ' _ hagree
  refine ⟨fun c => Cert.KernelIdeal.Run.launched m c, Cert.KernelIdeal.Run.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v10_eq, Cert.ReferenceIdeal.RefNet.ref_is_net,
    (hagree c).1, (hagree c).2.1, (hagree c).2.2.1, (hagree c).2.2.2.1, (hagree c).2.2.2.2.1, (hagree c).2.2.2.2.2.1, (hagree c).2.2.2.2.2.2]

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, trivial, algebraic⟩

end Cert.Proof

end
